-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x1024 : Shape := ⟨2, ![512, 1024]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_

variable [Facts]

def fn {F : FTy → Type} [FloatOps F] (main_arg0 : FVec F S16384x512 .f32) (main_arg1 : FVec F S512x1024 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x1024 .f32 := Host.absf main_arg1
  let main_cst_0 : FVec F S_ .f32 := constant S_ .f32 0x7F800000#32
  let main_v5 : FVec F S512x1024 .f32 := broadcastInDim S512x1024 ![] bcast_S_S512x1024 main_cst_0
  let main_v6 : IVec S512x1024 1 := cmpf .olt main_v4 main_v5
  let main_c_1 : IVec S_ 1 := constantI S_ 1 1#1
  let main_v7 : IVec S_ 1 := (fun x v => Host.reduce IntOp.andi x v reducesTo_S512x1024_S_d0_1 h_S_) main_v6 main_c_1
  let main_v8 : IVec S_ 1 := andi main_v3 main_v7
  main_v8
-- ==== Kernel.lean ====
abbrev S16384x512 : Shape := ⟨2, ![16384, 512]⟩
abbrev S512x1024 : Shape := ⟨2, ![512, 1024]⟩
abbrev S_ : Shape := ⟨0, ![]⟩
abbrev S1024 : Shape := ⟨1, ![1024]⟩
abbrev S1x1024 : Shape := ⟨2, ![1, 1024]⟩
abbrev S16384x1024 : Shape := ⟨2, ![16384, 1024]⟩
abbrev S1024x512 : Shape := ⟨2, ![1024, 512]⟩
abbrev S1024x1024 : Shape := ⟨2, ![1024, 1024]⟩
abbrev S1024x1 : Shape := ⟨2, ![1024, 1]⟩

abbrev nBuf : Space → Nat
  | .hbm => 11
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S512x1024, .bf16⟩
  | .hbm, ⟨3, _⟩ => ⟨S512x1024, .f32⟩
  | .hbm, ⟨4, _⟩ => ⟨S_, .f32⟩
  | .hbm, ⟨5, _⟩ => ⟨S1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bitsLt_bf16_f32 : FTy.bits .bf16 < FTy.bits .f32
  reducesTo_S512x1024_S1024_d0 : S512x1024.ReducesTo [0] S1024
  h_S_ : 0 < S_.numel
  bcast_S1024_S1x1024_1 : S1024.BroadcastsInDim S1x1024 (![1] : Fin 1 → Fin S1x1024.rank)
  bcast_S_S1x1024 : S_.BroadcastsInDim S1x1024 (![] : Fin 0 → Fin S1x1024.rank)
  inb_S1024x512_S1024x512_0_0 : ∀ a, (![0, 0] : Fin 2 → Nat) a + S1024x512.size a ≤ S1024x512.size a
  h_S1024x512 : 0 < S1024x512.numel
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S1024x512_S1024 : S1024x512.Reduces [1] S1024
  shapeCasts_S1024_S1024x1 : S1024.ShapeCasts S1024x1
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x1024 : Shape := ⟨2, ![512, 1024]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩

abbrev nBuf : Space → Nat
  | .hbm => 22
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x1024, .f32⟩
  | .hbm, ⟨2, _⟩ => ⟨S16384x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S512x1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S16384x1024, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S512x1024_S1024_d0 : S512x1024.ReducesTo [0] S1024
  bcast_S1024_S1x1024_1 : S1024.BroadcastsInDim S1x1024 (![1] : Fin 1 → Fin S1x1024.rank)
  bcast_S_S16384x1024 : S_.BroadcastsInDim S16384x1024 (![] : Fin 0 → Fin S16384x1024.rank)
  bcast_S16384x1_S16384x1024_0_1 : S16384x1.BroadcastsInDim S16384x1024 (![0, 1] : Fin 2 → Fin S16384x1024.rank)
  bcast_S1x1024_S16384x1024_0_1 : S1x1024.BroadcastsInDim S16384x1024 (![0, 1] : Fin 2 → Fin S16384x1024.rank)
  dot_S16384x512_S512x1024_S16384x1024_1_0_0_1_n_n_wf : DotDims.WF S16384x512 S512x1024 S16384x1024 [1] [0] [0] [1] [] []

variable [Facts₀]

def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf

class Facts : Prop extends Facts₀ where

variable [Facts]
-- ==== Proof.RbfSpec.lean ====
/-
  The radial-basis layer as one function of its two arguments, and the law that joins its two spellings.

  For inputs x : [16384, 512] and centres mu : [512, 1024] the layer's entry (r, u) is
  exp (-(1/2) · ‖x_r − mu_u‖²), where the squared distance is expanded as ‖x_r‖² − 2 ⟨x_r, mu_u⟩ + ‖mu_u‖².
  One program computes the exponent as -(1/2) · ((‖x_r‖² − 2 ⟨x_r, mu_u⟩) + ‖mu_u‖²), the other distributes the
  factor first: (1 · ⟨x_r, mu_u⟩ − (1/2) · ‖x_r‖²) + (-(1/2)) · ‖mu_u‖². On the extended reals distributing a factor
  over a sum can fail at the infinities, so the two agree where every entry of x and mu is a real number: then the
  three sums are real and the identity is one of the field of reals.
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-- ‖x_r‖²: the sum of the squares of row r of x. -/
def rowSq (x : (⟨2, ![16384, 512]⟩ : Shape).Idx → EReal) (r : Fin 16384) : EReal :=
  ∑ k : Fin 512, x (ix2 r k) * x (ix2 r k)

/-- ‖mu_u‖²: the sum of the squares of column u of mu. -/
def colSq (mu : (⟨2, ![512, 1024]⟩ : Shape).Idx → EReal) (u : Fin 1024) : EReal :=
  ∑ k : Fin 512, mu (ix2 k u) * mu (ix2 k u)

/-- ⟨x_r, mu_u⟩: row r of x against column u of mu. -/
def cross (x : (⟨2, ![16384, 512]⟩ : Shape).Idx → EReal) (mu : (⟨2, ![512, 1024]⟩ : Shape).Idx → EReal)
    (r : Fin 16384) (u : Fin 1024) : EReal :=
  ∑ k : Fin 512, x (ix2 r k) * mu (ix2 k u)

/-- The exponent with the factor -(1/2) distributed: (1 · ⟨x_r, mu_u⟩ − (1/2) · ‖x_r‖²) + (-(1/2)) · (0 + ‖mu_u‖²).
    The words are the single-precision patterns of 1, 1/2, -(1/2) and 0. -/
def expoFused (x : (⟨2, ![16384, 512]⟩ : Shape).Idx → EReal) (mu : (⟨2, ![512, 1024]⟩ : Shape).Idx → EReal)
    (r : Fin 16384) (u : Fin 1024) : EReal :=
  (Ideal.ofBits .f32 0x3F800000#32 * cross x mu r u - Ideal.ofBits .f32 0x3F000000#32 * rowSq x r)
    + Ideal.ofBits .f32 0xBF000000#32 * (Ideal.ofBits .f32 0x00000000#32 + colSq mu u)

/-- The exponent as -(1/2) times the expanded squared distance: -(1/2) · (((0 + ‖x_r‖²) − 2 · ⟨x_r, mu_u⟩) + (0 + ‖mu_u‖²)). -/
def expoDist (x : (⟨2, ![16384, 512]⟩ : Shape).Idx → EReal) (mu : (⟨2, ![512, 1024]⟩ : Shape).Idx → EReal)
    (r : Fin 16384) (u : Fin 1024) : EReal :=
  Ideal.ofBits .f32 0xBF000000#32
    * (((Ideal.ofBits .f32 0x00000000#32 + rowSq x r) - Ideal.ofBits .f32 0x40000000#32 * cross x mu r u)
        + (Ideal.ofBits .f32 0x00000000#32 + colSq mu u))

/-- The layer, entry by entry, in the distributed spelling. -/
def rbf (x : (⟨2, ![16384, 512]⟩ : Shape).Idx → EReal) (mu : (⟨2, ![512, 1024]⟩ : Shape).Idx → EReal) :
    (⟨2, ![16384, 1024]⟩ : Shape).Idx → EReal :=
  fun i => Ideal.exp (expoFused x mu (i 0) (i 1))

/-! ## The four words -/

theorem word_one : Ideal.ofBits .f32 0x3F800000#32 = ((1 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_zero : Ideal.ofBits .f32 0x00000000#32 = ((0 : ℝ) : EReal) := by
  simp [Ideal.ofBits, Ideal.ieee]

/-! ## The law -/

/-- A finite sum of real numbers, read in the extended reals, is the real sum. -/
theorem sum_coe {ι : Type} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Where x and mu hold real numbers, the distributed exponent is -(1/2) times the expanded squared distance. -/
theorem expoFused_eq_expoDist (x : (⟨2, ![16384, 512]⟩ : Shape).Idx → EReal) (mu : (⟨2, ![512, 1024]⟩ : Shape).Idx → EReal)
    (hx : ∀ i, ∃ a : ℝ, x i = (a : EReal)) (hmu : ∀ i, ∃ b : ℝ, mu i = (b : EReal)) (r : Fin 16384) (u : Fin 1024) :
    expoFused x mu r u = expoDist x mu r u := by
  choose xr hxr using hx
  choose mr hmr using hmu
  have hc : cross x mu r u = ((∑ k : Fin 512, xr (ix2 r k) * mr (ix2 k u) : ℝ) : EReal) := by
    unfold cross
    simp only [hxr, hmr, ← EReal.coe_mul]
    exact sum_coe _ _
  have ha : rowSq x r = ((∑ k : Fin 512, xr (ix2 r k) * xr (ix2 r k) : ℝ) : EReal) := by
    unfold rowSq
    simp only [hxr, ← EReal.coe_mul]
    exact sum_coe _ _
  have hb : colSq mu u = ((∑ k : Fin 512, mr (ix2 k u) * mr (ix2 k u) : ℝ) : EReal) := by
    unfold colSq
    simp only [hmr, ← EReal.coe_mul]
    exact sum_coe _ _
  unfold expoFused expoDist
  rw [hc, ha, hb, word_one, word_half, word_neg_half, word_two, word_zero]
  simp only [← EReal.coe_mul, ← EReal.coe_add, ← EReal.coe_sub]
  refine congrArg _ ?_
  ring

end Cert.Rbf

end
-- ==== Proof.RbfFinite.lean ====
/-
  Finite inputs are real-valued.

  The precondition compares the absolute value of every entry of x and of mu with +∞ and takes the conjunction over
  all entries. Where it holds, |a| < +∞ at each entry a; an extended real whose absolute value max (a, −a) lies
  strictly below +∞ is neither infinity, so it is a real number.
-/
import proofs.«120114_j38800734552376_2_alg».proof.Pre_finite_inputs
import proofs.«120114_j38800734552376_2_alg».proof.Proof.Gen.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.Rbf.Finite

open Idealize.ShloMosaic Idealize.ShloMosaic.ValueIdx Cert.Pre_finite_inputs

/-- The pattern of +∞. -/
theorem word_top : Ideal.ofBits .f32 0x7F800000#32 = (⊤ : EReal) := by
  simp [Ideal.ofBits, Ideal.ieee]

/-- An extended real with |a| < +∞ is a real number. -/
theorem real_of_abs_lt_top (a : EReal)
    (h : Ideal.cmp .olt (max a (-a)) (Ideal.ofBits .f32 0x7F800000#32) = 1#1) : ∃ r : ℝ, a = (r : EReal) := by
  rw [word_top] at h
  induction a using EReal.rec with
  | bot => simp [Ideal.cmp] at h
  | top => simp [Ideal.cmp] at h
  | coe r => exact ⟨r, rfl⟩

instance : Subsingleton S_.Idx := ⟨fun a b => funext fun d => d.elim0⟩

/-- Where the precondition holds of x and mu, every entry of both is a real number. -/
theorem real_entries (x : FVec Ideal S16384x512 .f32) (mu : FVec Ideal S512x1024 .f32)
    (h : fn (F := Ideal) x mu = fun _ => 1#1) :
    (∀ i, ∃ a : ℝ, x i = (a : EReal)) ∧ (∀ i, ∃ b : ℝ, mu i = (b : EReal)) := by
  have h0 := congrFun h ix0
  dsimp only [fn] at h0
  obtain ⟨h1, h2⟩ := IntOp.andi_eq_one.1 h0
  exact ⟨fun i => real_of_abs_lt_top _ (Host.reduce_andi_all _ _ _ _ _ h1 i),
    fun i => real_of_abs_lt_top _ (Host.reduce_andi_all _ _ _ _ _ h2 i)⟩

end Cert.Rbf.Finite

end
-- ==== Proof.RbfReference.lean ====
/-
  The reference program computes the radial-basis layer in the spelling -(1/2) · (expanded squared distance).

  Read one operation at a time, the reference's result at (r, u) is exp of
  -(1/2) · (((0 + ‖x_r‖²) − 2 · ⟨x_r, mu_u⟩) + (0 + ‖mu_u‖²)): the two squared norms are sums over the contracted
  coordinate started from 0, the inner product is the general dot product's sum, and the keepdims columns and rows are
  spread back over the [16384, 1024] result by broadcasts that read row r and column u.
-/
import proofs.«120114_j38800734552376_2_alg».proof.Proof.Gen.ReferenceIdeal.Read
import proofs.«120114_j38800734552376_2_alg».proof.Proof.RbfSpec

noncomputable section

namespace Cert.Rbf.Reference

open Idealize.ShloMosaic Idealize.ShloMosaic.ValueIdx Cert.ReferenceIdeal Cert.ReferenceIdeal.Read

/-- The row of x that entry i's squared norm sums over. -/
theorem row_idx (i : S16384x1024.Idx) (k : Fin 512) : idx_main_v1 (idx_main_v2 (idx_main_v9 i)) k = ix2 (i 0) k :=
  funext fun a => Fin.ext (by match a with | ⟨0, _⟩ => rfl | ⟨1, _⟩ => rfl)

/-- The column of mu that entry i's squared norm sums over. -/
theorem col_idx (i : S16384x1024.Idx) (k : Fin 512) : idx_main_v4 (idx_main_v5 (idx_main_v11 i)) k = ix2 k (i 1) :=
  funext fun a => Fin.ext (by match a with | ⟨0, _⟩ => rfl | ⟨1, _⟩ => rfl)

/-- The inner product's left factor: row (i 0) of x. -/
theorem dot_lhs_idx (i : S16384x1024.Idx) (k : Fin 512) : lidx_main_v6 i k = ix2 (i 0) k :=
  funext fun a => Fin.ext (by match a with | ⟨0, _⟩ => rfl | ⟨1, _⟩ => rfl)

/-- The inner product's right factor: column (i 1) of mu. -/
theorem dot_rhs_idx (i : S16384x1024.Idx) (k : Fin 512) : ridx_main_v6 i k = ix2 k (i 1) :=
  funext fun a => Fin.ext (by match a with | ⟨0, _⟩ => rfl | ⟨1, _⟩ => rfl)

/-- The reference's result at an entry is exp of -(1/2) times the expanded squared distance. -/
theorem result_apply (x : (⟨S16384x512, .f32⟩ : BufTy).Contents (Elt Ideal)) (mu : (⟨S512x1024, .f32⟩ : BufTy).Contents (Elt Ideal))
    (i : S16384x1024.Idx) :
    val_main_v15 (F := Ideal) x mu i = Ideal.exp (Cert.Rbf.expoDist x mu (i 0) (i 1)) := by
  rw [val_main_v15_apply, val_main_v14_apply, val_main_v13_apply, val_main_cst_2_apply, val_main_v12_apply,
    val_main_v10_apply, val_main_v9_apply, val_main_v2_apply, val_main_v1_apply, val_main_cst_apply,
    val_main_v8_apply, val_main_v7_apply, val_main_cst_1_apply, val_main_v6_apply,
    val_main_v11_apply, val_main_v5_apply, val_main_v4_apply, val_main_cst_0_apply]
  simp only [val_main_v0_apply, val_main_v3_apply, row_idx, col_idx, dot_lhs_idx, dot_rhs_idx,
    Ideal.hostUnary_exp_def, Ideal.mulf_def, Ideal.subf_def, Ideal.addf_def, Ideal.ofBits_def]
  rfl

end Cert.Rbf.Reference

end
-- ==== Proof.LibLayoutRead.lean ====
/-
  Layout operations read at explicit coordinates, for the shapes a row-wise normalisation meets.

  A keepdims row statistic lives in a column [a, 1]: it is made from a vector [a] by a shape cast and spread
  back over the b lanes of its row by a broadcast; a parameter vector [b] becomes a row [1, b] and is spread
  over the rows. On the host the same happens one rank up, on [n, g, 1] and [n, g, b], and a matrix [n, g*b] is
  re-read as [n, g, b] by its row-major position p*b + j. Each lemma names the ONE operand element an output element
  reads, with every index written by the literal-size constructors ix1, ix2, ix3.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LayoutRead

open Idealize.ShloMosaic Idealize.ShloMosaic.ValueIdx

variable {α : Type}

/-! ## Rank 2: a column of row statistics -/

/-- A vector [a] cast to the column [a, 1] reads, at (r, u), the vector at r. -/
theorem cast_col {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column [a, 1] broadcast over b lanes reads, at (r, j), the column at row r. -/
theorem bcast_col {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-- The lane sum of a matrix, at row r, is the sum of that row (at the extended reals). -/
theorem rowsum {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (funext fun ax => by
      match ax with
      | ⟨0, _⟩ => rfl
      | ⟨1, _⟩ => rfl))

/-! ## The host's forms: broadcast_in_dim, the rank-3 view of the four gates, the host sum -/

/-- A coordinate is what a broadcast asks of it: itself, or zero when its axis has one element. -/
theorem unit_or (n : ℕ) (j : Fin n) : j.val = if n = 1 then 0 else j.val := by
  split
  · have := j.isLt; omega
  · rfl

/-- A rank-zero value broadcast to any shape reads its one element everywhere. -/
theorem bcast_scalar {t : Shape} (x : (⟨0, ![]⟩ : Shape).Idx → α) (dims : Fin 0 → Fin t.rank)
    (h : (⟨0, ![]⟩ : Shape).BroadcastsInDim t dims) (j : t.Idx) : broadcastInDim t dims h x j = x ix0 :=
  broadcastInDim_apply dims h x j ix0 fun a => a.elim0

/-- A vector [n] as the row [1, n]. -/
theorem bid_row {n : ℕ} (x : (⟨1, ![n]⟩ : Shape).Idx → α) (h : (⟨1, ![n]⟩ : Shape).BroadcastsInDim ⟨2, ![1, n]⟩ ![1])
    (u : Fin 1) (j : Fin n) : broadcastInDim ⟨2, ![1, n]⟩ ![1] h x (ix2 u j) = x (ix1 j) :=
  broadcastInDim_apply _ h x _ _ fun a => by
    match a with
    | ⟨0, _⟩ => exact unit_or n j

/-- A row [1, n] spread over m rows. -/
theorem bid_rows {m n : ℕ} (x : (⟨2, ![1, n]⟩ : Shape).Idx → α) (h : (⟨2, ![1, n]⟩ : Shape).BroadcastsInDim ⟨2, ![m, n]⟩ ![0, 1])
    (b : Fin m) (j : Fin n) : broadcastInDim ⟨2, ![m, n]⟩ ![0, 1] h x (ix2 b j) = x (ix2 (0 : Fin 1) j) :=
  broadcastInDim_apply _ h x _ _ fun a => by
    match a with
    | ⟨0, _⟩ => rfl
    | ⟨1, _⟩ => exact unit_or n j

/-- A vector [m] as the column [m, 1]. -/
theorem bid_col {m : ℕ} (x : (⟨1, ![m]⟩ : Shape).Idx → α) (h : (⟨1, ![m]⟩ : Shape).BroadcastsInDim ⟨2, ![m, 1]⟩ ![0])
    (b : Fin m) (u : Fin 1) : broadcastInDim ⟨2, ![m, 1]⟩ ![0] h x (ix2 b u) = x (ix1 b) :=
  broadcastInDim_apply _ h x _ _ fun a => by
    match a with
    | ⟨0, _⟩ => exact unit_or m b

/-- A column [m, 1] spread over n lanes. -/
theorem bid_cols {m n : ℕ} (x : (⟨2, ![m, 1]⟩ : Shape).Idx → α) (h : (⟨2, ![m, 1]⟩ : Shape).BroadcastsInDim ⟨2, ![m, n]⟩ ![0, 1])
    (b : Fin m) (j : Fin n) : broadcastInDim ⟨2, ![m, n]⟩ ![0, 1] h x (ix2 b j) = x (ix2 b (0 : Fin 1)) :=
  broadcastInDim_apply _ h x _ _ fun a => by
    match a with
    | ⟨0, _⟩ => exact unit_or m b
    | ⟨1, _⟩ => rfl

/-- A matrix [m, g] of per-gate statistics as [m, g, 1]. -/
theorem bid_stat {m g : ℕ} (x : (⟨2, ![m, g]⟩ : Shape).Idx → α) (h : (⟨2, ![m, g]⟩ : Shape).BroadcastsInDim ⟨3, ![m, g, 1]⟩ ![0, 1])
    (b : Fin m) (p : Fin g) (u : Fin 1) : broadcastInDim ⟨3, ![m, g, 1]⟩ ![0, 1] h x (ix3 b p u) = x (ix2 b p) :=
  broadcastInDim_apply _ h x _ _ fun a => by
    match a with
    | ⟨0, _⟩ => exact unit_or m b
    | ⟨1, _⟩ => exact unit_or g p

/-- Per-gate statistics [m, g, 1] spread over the n lanes of each gate. -/
theorem bid_stats {m g n : ℕ} (x : (⟨3, ![m, g, 1]⟩ : Shape).Idx → α)
    (h : (⟨3, ![m, g, 1]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 b p (0 : Fin 1)) :=
  broadcastInDim_apply _ h x _ _ fun a => by
    match a with
    | ⟨0, _⟩ => exact unit_or m b
    | ⟨1, _⟩ => exact unit_or g p
    | ⟨2, _⟩ => rfl

/-- The per-gate parameters [g, n] as [1, g, n]. -/
theorem bid_par {g n : ℕ} (x : (⟨2, ![g, n]⟩ : Shape).Idx → α) (h : (⟨2, ![g, n]⟩ : Shape).BroadcastsInDim ⟨3, ![1, g, n]⟩ ![1, 2])
    (u : Fin 1) (p : Fin g) (j : Fin n) : broadcastInDim ⟨3, ![1, g, n]⟩ ![1, 2] h x (ix3 u p j) = x (ix2 p j) :=
  broadcastInDim_apply _ h x _ _ fun a => by
    match a with
    | ⟨0, _⟩ => exact unit_or g p
    | ⟨1, _⟩ => exact unit_or n j

/-- The per-gate parameters [1, g, n] spread over m rows. -/
theorem bid_pars {m g n : ℕ} (x : (⟨3, ![1, g, n]⟩ : Shape).Idx → α)
    (h : (⟨3, ![1, g, n]⟩ : Shape).BroadcastsInDim ⟨3, ![m, g, n]⟩ ![0, 1, 2])
    (b : Fin m) (p : Fin g) (j : Fin n) : broadcastInDim ⟨3, ![m, g, n]⟩ ![0, 1, 2] h x (ix3 b p j) = x (ix3 (0 : Fin 1) p j) :=
  broadcastInDim_apply _ h x _ _ fun a => by
    match a with
    | ⟨0, _⟩ => rfl
    | ⟨1, _⟩ => exact unit_or g p
    | ⟨2, _⟩ => exact unit_or n j

/-- The four gates' pre-activations [m, 4096] re-read as [m, 4, 1024]: gate p, lane j is column 1024 p + j. -/
theorem cast_gates {m : ℕ} (x : (⟨2, ![m, 4096]⟩ : Shape).Idx → α) (h : (⟨2, ![m, 4096]⟩ : Shape).ShapeCasts ⟨3, ![m, 4, 1024]⟩)
    (b : Fin m) (p : Fin 4) (j : Fin 1024) (k : Fin 4096) (hk : k.val = 1024 * p.val + j.val) :
    shapeCast ⟨3, ![m, 4, 1024]⟩ x h (ix3 b p j) = x (ix2 b k) :=
  shapeCast_apply x h _ _ (by
    rw [Shape.rowMajor_val_two, Shape.rowMajor_val_three]
    show b.val * 4096 + k.val = (b.val * 4 + p.val) * 1024 + j.val
    omega)

/-- One gate cut out of [m, 4, n] keeps its row and lane. -/
theorem slice_gate {m n : ℕ} (o : ℕ) (x : (⟨3, ![m, 4, n]⟩ : Shape).Idx → α)
    (h : (⟨3, ![m, 4, n]⟩ : Shape).Slices ![0, o, 0] ⟨3, ![m, 1, n]⟩) (b : Fin m) (u : Fin 1) (j : Fin n) (p : Fin 4)
    (hp : p.val = o) : extractStridedSlice ⟨3, ![m, 1, n]⟩ ![0, o, 0] x h (ix3 b u j) = x (ix3 b p j) :=
  slice3_axis1_apply o x h b u j p (by have := u.isLt; omega)

/-- The cut gate [m, 1, n] as a matrix [m, n]. -/
theorem cast_gate {m n : ℕ} (x : (⟨3, ![m, 1, n]⟩ : Shape).Idx → α) (h : (⟨3, ![m, 1, n]⟩ : Shape).ShapeCasts ⟨2, ![m, n]⟩)
    (b : Fin m) (j : Fin n) : shapeCast ⟨2, ![m, n]⟩ x h (ix2 b j) = x (ix3 b (0 : Fin 1) j) :=
  shapeCast_apply x h _ _ (by
    rw [Shape.rowMajor_val_two, Shape.rowMajor_val_three]
    show (b.val * 1 + 0) * n + j.val = b.val * n + j.val
    rw [Nat.mul_one, Nat.add_zero])

/-- The host's sum over the lanes of each gate: the initial value plus the sum of the gate's lanes. -/
theorem hostsum_gate {m g n : ℕ} (x : FVec Ideal ⟨3, ![m, g, n]⟩ .f32) (init : (⟨0, ![]⟩ : Shape).Idx → Ideal .f32)
    (h' : (⟨3, ![m, g, n]⟩ : Shape).ReducesTo [2] ⟨2, ![m, g]⟩) (h : (⟨3, ![m, g, n]⟩ : Shape).Reduces [2] ⟨2, ![m, g]⟩)
    (hu : 0 < (⟨0, ![]⟩ : Shape).numel) (b : Fin m) (p : Fin g) :
    Host.reduceAdd x init h' hu (ix2 b p) = init ix0 + ∑ k : Fin n, x (ix3 b p k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl
  | ⟨2, _⟩ => rfl

/-- The host's sum over the lanes of a matrix row. -/
theorem hostsum_row {m n : ℕ} (x : FVec Ideal ⟨2, ![m, n]⟩ .f32) (init : (⟨0, ![]⟩ : Shape).Idx → Ideal .f32)
    (h' : (⟨2, ![m, n]⟩ : Shape).ReducesTo [1] ⟨1, ![m]⟩) (h : (⟨2, ![m, n]⟩ : Shape).Reduces [1] ⟨1, ![m]⟩)
    (hu : 0 < (⟨0, ![]⟩ : Shape).numel) (b : Fin m) :
    Host.reduceAdd x init h' hu (ix1 b) = init ix0 + ∑ k : Fin n, x (ix2 b k) := by
  unfold Host.reduceAdd
  rw [Ideal.hostReduceAdd_def, Ideal.hostReduceAdd_single h' h]
  refine congrArg₂ (· + ·) (congrArg init (funext fun a => a.elim0)) (Finset.sum_congr rfl fun k _ => congrArg x (funext fun ax => ?_))
  match ax with
  | ⟨0, _⟩ => rfl
  | ⟨1, _⟩ => rfl

end Cert.LayoutRead

end
-- ==== Proof.LibDotRead.lean ====
/-
  A plain matrix product read at an entry.

  For a two-dimensional product with one contracted axis — rows × contraction times contraction × columns, no batch
  axis — the entry (r, k) of the product into a zero accumulator is the finite sum Σ j, lhs (r, j) · rhs (j, k) over the
  contraction's coordinate j : Fin n. The dimension record enters only through the four coordinate facts below
  (which operand coordinate each output and contraction coordinate supplies); for a printed record each of them is
  decided or holds by unfolding. The same sum is what the host's general dot product computes, so the two forms
  meet term by term.
-/
import Idealize.ShloMosaic.PureOps.Ideal
import Idealize.ShloMosaic.PureOps.Ideal.Laws
import Idealize.ShloMosaic.Lib.ValueIdx

noncomputable section

namespace Cert.DotRead

open Idealize.ShloMosaic Idealize.ShloMosaic.ValueIdx

/-- The four coordinate facts of a plain two-dimensional product whose contraction has the one coordinate of extent n:
    the left operand is read at (output row, contraction), the right one at (contraction, output column). -/
structure Plain {m n p : ℕ} (d : DotDims ⟨2, ![m, n]⟩ ⟨2, ![n, p]⟩ ⟨2, ![m, p]⟩) : Prop where
  rank : d.contr.rank = 1
  size : d.contr.size ⟨0, by omega⟩ = n
  lhs0 : ∀ (i : (⟨2, ![m, p]⟩ : Shape).Idx) (q : d.contr.Idx), (d.lhsIdx i q 0).val = (i 0).val
  lhs1 : ∀ (i : (⟨2, ![m, p]⟩ : Shape).Idx) (q : d.contr.Idx), (d.lhsIdx i q 1).val = (q ⟨0, by omega⟩).val
  rhs0 : ∀ (i : (⟨2, ![m, p]⟩ : Shape).Idx) (q : d.contr.Idx), (d.rhsIdx i q 0).val = (q ⟨0, by omega⟩).val
  rhs1 : ∀ (i : (⟨2, ![m, p]⟩ : Shape).Idx) (q : d.contr.Idx), (d.rhsIdx i q 1).val = (i 1).val

/-- Entry (r, k) of a plain product into the zero accumulator is Σ j, lhs (r, j) · rhs (j, k). -/
theorem matmul_zero_apply {m n p : ℕ} {φ₁ φ₂ : FTy} (d : DotDims ⟨2, ![m, n]⟩ ⟨2, ![n, p]⟩ ⟨2, ![m, p]⟩) (hd : Plain d)
    (prec : Option ContractPrecision) (lhs : FVec Ideal ⟨2, ![m, n]⟩ φ₁) (rhs : FVec Ideal ⟨2, ![n, p]⟩ φ₂) (r : Fin m) (k : Fin p) :
    matmul d prec lhs rhs (constant (F := Ideal) ⟨2, ![m, p]⟩ .f32 0x00000000#32) (ix2 r k)
      = ∑ j : Fin n, lhs (ix2 r j) * rhs (ix2 j k) := by
  simp only [matmul]
  rw [Ideal.matmul_constant_zero_apply, ← Equiv.sum_comp (contrEquiv1 d n hd.rank hd.size).symm]
  refine Finset.sum_congr rfl fun j _ => ?_
  have hj := contrEquiv1_symm_val d n hd.rank hd.size j
  have el : d.lhsIdx (ix2 r k) ((contrEquiv1 d n hd.rank hd.size).symm j) = ix2 r j := funext fun a => Fin.ext (by
    match a with
    | ⟨0, _⟩ => exact hd.lhs0 _ _
    | ⟨1, _⟩ => exact (hd.lhs1 _ _).trans hj)
  have er : d.rhsIdx (ix2 r k) ((contrEquiv1 d n hd.rank hd.size).symm j) = ix2 j k := funext fun a => Fin.ext (by
    match a with
    | ⟨0, _⟩ => exact (hd.rhs0 _ _).trans hj
    | ⟨1, _⟩ => exact hd.rhs1 _ _)
  rw [el, er]

end Cert.DotRead

end
-- ==== Proof.LibRecip.lean ====
/-
  Dividing against multiplying by the reciprocal, on the extended reals; and a row spread over rows.

  A program that precomputes 1 / d and multiplies, against one that divides by d: the quotient is x · d⁻¹ except at d = 0
  (where it is an infinity by the sign of x), and the inverse of an infinity is 0. So x / d = x · (1 / d) for EVERY extended
  real x as soon as d ≠ 0 — d may be infinite, x may be infinite, no finiteness is needed. A count clamped below at one,
  max (s, 1), is such a d. The last lemma reads a one-row matrix broadcast over m rows at an entry.
-/
import Idealize.ShloMosaic.PureOps.Ideal
import Idealize.ShloMosaic.Lib.ValueIdx
import Idealize.ShloMosaic.Lib.Pipeline.Value

noncomputable section

namespace Cert.LibRecip

open Idealize.ShloMosaic Idealize.ShloMosaic.ValueIdx

/-- Dividing by a non-zero d is multiplying by its reciprocal 1 / d, for every extended real x and d. -/
theorem div_eq_mul_recip (x d : EReal) (hd : d ≠ 0) : Ideal.div x d = x * Ideal.div 1 d := by
  rw [Ideal.div, if_neg hd, Ideal.div, if_neg hd, one_mul]

/-- A quantity clamped below at one is never zero. -/
theorem max_one_ne_zero (s : EReal) : max s (1 : EReal) ≠ 0 :=
  ne_of_gt (lt_of_lt_of_le (by norm_num : (0 : EReal) < 1) (le_max_right s 1))

/-- A row [1, n] spread over m rows reads, at (r, q), the row at q. -/
theorem bcast_row {α : Type} {m n : ℕ} (v : (⟨2, ![1, n]⟩ : Shape).Idx → α) (h : (⟨2, ![1, n]⟩ : Shape).Broadcasts ⟨2, ![m, n]⟩)
    (r : Fin m) (q : Fin n) : broadcastTo ⟨2, ![m, n]⟩ v h (ix2 r q) = v (ix2 (0 : Fin 1) q) := by
  refine broadcastTo_apply v h (ix2 r q) (ix2 (0 : Fin 1) q) fun ax => ?_
  match ax with
  | ⟨0, _⟩ => rfl
  | ⟨1, _⟩ =>
    show q.val = if n = 1 then 0 else q.val
    split
    · have := q.isLt; omega
    · rfl

end Cert.LibRecip

end
-- ==== Proof.RbfKernelEntry.lean ====
/-
  One entry of the kernel body's stored block.

  From a block x0 of 1024 rows of x, the whole of mu (x1) and the row x2 the host prepared, the body stores at (p, q)
  exp ((1 · Σ_k x0 (p, k) · x1 (k, q) − (1/2) · Σ_k x0 (p, k)²) + x2 (0, q)): the matrix product into a zero
  accumulator is the plain sum over the contracted coordinate, the lane sum of the squares of row p is kept as a
  column and spread back over the lanes, and the row x2 is spread over the rows. The change of number format on the
  way into the product is the identity on extended reals.
-/
import proofs.«120114_j38800734552376_2_alg».proof.Proof.Gen.KernelIdeal.Skeleton
import proofs.«120114_j38800734552376_2_alg».proof.Proof.LibLayoutRead
import proofs.«120114_j38800734552376_2_alg».proof.Proof.LibDotRead
import proofs.«120114_j38800734552376_2_alg».proof.Proof.LibRecip
import Idealize.ShloMosaic.Lib.Pipeline.Value
import Idealize.ShloMosaic.Lib.ValueIdx

noncomputable section

namespace Cert.Rbf.Kernel

open Idealize.ShloMosaic Idealize.ShloMosaic.ValueIdx Cert.KernelIdeal Cert.KernelIdeal.Gen

/-- The body's matrix product is a plain one: rows times the contracted axis, the contracted axis times columns. -/
theorem dot_plain : Cert.DotRead.Plain dot_S1024x512_S512x1024_S1024x1024_1_0_0_1_n_n where
  rank := rfl
  size := rfl
  lhs0 := fun i q => by
    unfold DotDims.lhsIdx
    rw [dif_neg (show ¬(0 : Fin S1024x512.rank) ∈ dot_S1024x512_S512x1024_S1024x1024_1_0_0_1_n_n.lhsBatch by decide),
      dif_pos (show (0 : Fin S1024x512.rank) ∈ dot_S1024x512_S512x1024_S1024x1024_1_0_0_1_n_n.lhsNonContracting by decide)]
    rfl
  lhs1 := fun i q => dot_S1024x512_S512x1024_S1024x1024_1_0_0_1_n_n.lhsIdx_val_of_single rfl i q
  rhs0 := fun i q => dot_S1024x512_S512x1024_S1024x1024_1_0_0_1_n_n.rhsIdx_val_of_single rfl i q
  rhs1 := fun i q => by
    unfold DotDims.rhsIdx
    rw [dif_neg (show ¬(1 : Fin S512x1024.rank) ∈ dot_S1024x512_S512x1024_S1024x1024_1_0_0_1_n_n.rhsBatch by decide),
      dif_pos (show (1 : Fin S512x1024.rank) ∈ dot_S1024x512_S512x1024_S1024x1024_1_0_0_1_n_n.rhsNonContracting by decide)]
    rfl

/-- The stored block at (p, q). -/
theorem entry (x0 : FVec Ideal S1024x512 .f32) (x1 : FVec Ideal S512x1024 .bf16) (x2 : FVec Ideal S1x1024 .f32)
    (p q : Fin 1024) :
    k0_pay1 (F := Ideal) x0 x1 x2 (ix2 p q)
      = Ideal.exp ((Ideal.ofBits .f32 0x3F800000#32 * ∑ k : Fin 512, x0 (ix2 p k) * x1 (ix2 k q)
            - Ideal.ofBits .f32 0x3F000000#32 * ∑ k : Fin 512, x0 (ix2 p k) * x0 (ix2 p k))
          + x2 (ix2 (0 : Fin 1) q)) := by
  unfold k0_pay1
  refine congrArg Ideal.exp (congrArg₂ (· + ·) (congrArg₂ (· - ·)
    (congrArg (Ideal.ofBits .f32 0x3F800000#32 * ·) ?_) ?_) ?_)
  · refine (Cert.DotRead.matmul_zero_apply _ dot_plain none _ _ p q).trans (Finset.sum_congr rfl fun k _ => ?_)
    rw [shapeCast_self]
    rfl
  · refine (Cert.LayoutRead.bcast_col _ _ p q).trans (congrArg (Ideal.ofBits .f32 0x3F000000#32 * ·) ?_)
    exact (Cert.LayoutRead.cast_col _ _ p 0).trans (Cert.LayoutRead.rowsum _ _ p)
  · refine (Cert.LibRecip.bcast_row _ _ p q).trans ?_
    rw [shapeCast_self]

end Cert.Rbf.Kernel

end
-- ==== Proof.LibHostColSum.lean ====
/-
  The host's sum over the leading axis of a matrix, read at a column.

  A one-operand reduction with an add body over axis 0 of an [m, n] array, at the extended reals, is at column u the
  initial value plus the sum over the rows k of the entry (k, u) — the column counterpart of a keepdims row sum.
-/
import Idealize.ShloMosaic.Lib.ValueIdx
import Idealize.ShloMosaic.PureOps.Ideal.Laws

noncomputable section

namespace Cert.HostColSum

open Idealize.ShloMosaic Idealize.ShloMosaic.ValueIdx

/-- The host's sum down the rows of a matrix: at column u, the initial value plus Σ_k x (k, u). -/
theorem hostsum_col {m n : ℕ} (x : FVec Ideal ⟨2, ![m, n]⟩ .f32) (init : (⟨0, ![]⟩ : Shape).Idx → Ideal .f32)
    (h' : (⟨2, ![m, n]⟩ : Shape).ReducesTo [0] ⟨1, ![n]⟩) (h : (⟨2, ![m, n]⟩ : Shape).Reduces [0] ⟨1, ![n]⟩)
    (hu : 0 < (⟨0, ![]⟩ : Shape).numel) (u : Fin n) :
    Host.reduceAdd x init h' hu (ix1 u) = init ix0 + ∑ k : Fin m, x (ix2 k u) := by
  unfold Host.reduceAdd
  rw [Ideal.hostReduceAdd_def, Ideal.hostReduceAdd_single h' h]
  refine congrArg₂ (· + ·) (congrArg init (funext fun a => a.elim0))
    (Finset.sum_congr rfl fun k _ => congrArg x (funext fun ax => ?_))
  match ax with
  | ⟨0, _⟩ => rfl
  | ⟨1, _⟩ => rfl

end Cert.HostColSum

end
-- ==== Proof.RbfKernelHost.lean ====
/-
  What the kernel's region finds in the two arrays the host prepared from mu.

  Before the region the host rewrites mu in the narrower number format — the identity on extended reals, so the
  array holds mu itself — and builds the row -(1/2) · (0 + ‖mu_u‖²), u = 0 … 1023: the squares of mu summed down each
  column from 0, laid out as a [1, 1024] row and scaled by the constant -(1/2).
-/
import proofs.«120114_j38800734552376_2_alg».proof.Proof.Gen.KernelIdeal.Frame
import proofs.«120114_j38800734552376_2_alg».proof.Proof.LibLayoutRead
import proofs.«120114_j38800734552376_2_alg».proof.Proof.LibHostColSum
import proofs.«120114_j38800734552376_2_alg».proof.Proof.RbfSpec
import Idealize.ShloMosaic.Lib.StableHlo.Run

noncomputable section

namespace Cert.Rbf.Kernel

open Idealize.ShloMosaic Idealize.ShloMosaic.TcCoe Idealize.ShloMosaic.ValueIdx Idealize.SL.Sem
open Cert.KernelIdeal Cert.KernelIdeal.Gen

/-- The scaled row of column norms at lane q: -(1/2) · (0 + ‖mu_q‖²). -/
theorem scaled_row_apply (mu : FVec Ideal S512x1024 .f32) (q : Fin 1024) :
    mulf (broadcastInDim S1x1024 ![] bcast_S_S1x1024 (constant (F := Ideal) S_ .f32 0xBF000000#32))
        (broadcastInDim S1x1024 ![1] bcast_S1024_S1x1024_1
          (Host.reduceAdd (F := Ideal) (mulf mu mu) (constant (F := Ideal) S_ .f32 0x00000000#32)
            reducesTo_S512x1024_S1024_d0 h_S_)) (ix2 (0 : Fin 1) q)
      = Ideal.ofBits .f32 0xBF000000#32 * (Ideal.ofBits .f32 0x00000000#32 + Cert.Rbf.colSq mu q) :=
  congrArg₂ (· * ·) (Cert.LayoutRead.bcast_scalar _ _ _ _)
    ((Cert.LayoutRead.bid_row _ _ 0 q).trans
      (Cert.HostColSum.hostsum_col (mulf mu mu) _ reducesTo_S512x1024_S1024_d0 (by decide) h_S_ q))

variable (m : (ℓ : Loc nD τ sig) → Buf (Elt Ideal) ℓ)

/-- The array the product's right operand is staged from holds mu: the change of format is the identity. -/
theorem found_mu (c : Dev nD) :
    (V (F := Ideal) m c main_v0 : S512x1024.Idx → EReal) = (m ((c : Thread nD τ).loc main_arg1) : S512x1024.Idx → EReal) := by
  dsimp only [V, hostOps0]
  after_results
  rfl

/-- The array the third window stages holds the scaled row of column norms of mu. -/
theorem found_row (c : Dev nD) :
    (V (F := Ideal) m c main_v5 : S1x1024.Idx → EReal)
      = mulf (broadcastInDim S1x1024 ![] bcast_S_S1x1024 (constant (F := Ideal) S_ .f32 0xBF000000#32))
          (broadcastInDim S1x1024 ![1] bcast_S1024_S1x1024_1
            (Host.reduceAdd (F := Ideal) (mulf (m ((c : Thread nD τ).loc main_arg1)) (m ((c : Thread nD τ).loc main_arg1)))
              (constant (F := Ideal) S_ .f32 0x00000000#32) reducesTo_S512x1024_S1024_d0 h_S_)) := by
  dsimp only [V, hostOps0]
  after_results

end Cert.Rbf.Kernel

end
-- ==== Proof.RbfKernelArray.lean ====
/-
  The kernel's result array is the radial-basis layer of its arguments.

  Grid point t stages rows 1024 t … 1024 t + 1023 of x, the whole of mu and the whole scaled row of column norms, and
  writes back rows 1024 t … 1024 t + 1023 of the result. Entry (p, q) of the block it stores is the layer's entry
  (1024 t + p, q): the staged block of x read at (p, k) is x (1024 t + p, k), and the staged row at lane q is
  -(1/2) · (0 + ‖mu_q‖²). The sixteen row blocks cover the [16384, 1024] result (row r lies in block r / 1024), so
  after the run the result array is the layer itself.
-/
import proofs.«120114_j38800734552376_2_alg».proof.Proof.Gen.KernelIdeal.Value
import proofs.«120114_j38800734552376_2_alg».proof.Proof.RbfSpec
import proofs.«120114_j38800734552376_2_alg».proof.Proof.RbfKernelEntry
import proofs.«120114_j38800734552376_2_alg».proof.Proof.RbfKernelHost
import Idealize.ShloMosaic.Lib.Pipeline.Value
import Idealize.ShloMosaic.Lib.ValueIdx

noncomputable section

namespace Cert.Rbf.Kernel

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

theorem zero_offsets : (![0, 0] : Fin 2 → Nat) = fun _ => 0 := funext fun a => by fin_cases a <;> rfl

/-- The block indices over the grid: the windows on x and on the result move down one row block per point, the
    windows on mu and on the scaled row stay at block (0, 0). -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT t WRITES BACK is block t of the layer of the argument arrays. -/
theorem flushed_eq (c : Dev nD) (t : Fin cfg0.N) :
    (dats m 0 c).flushed 3 t = ((cfg0.win 3).blk t).view.read (Elt Ideal)
      (Cert.Rbf.rbf (m ((c : Thread nD τ).loc main_arg0)) (m ((c : Thread nD τ).loc main_arg1))) := by
  rw [Cert.KernelIdeal.Value.flushed3]
  unfold out0_3
  rw [View.canon_unit_zero zero_offsets]
  simp only [View.ld_unit_zero (S := S1024x512) zero_offsets, View.ld_unit_zero (S := S512x1024) zero_offsets,
    View.ld_unit_zero (S := S1x1024) zero_offsets]
  obtain ⟨e00, e01, e10, e11, e20, e21, e30, e31⟩ := block_indices t
  have ht : t.val < 16 := lt_of_lt_of_eq t.isLt N_0
  funext j
  obtain ⟨p, q, rfl⟩ : ∃ (p : Fin 1024) (q : Fin 1024), j = ix2 p q := ⟨j 0, j 1, eq_ix2 j⟩
  show k0_pay1 (iblk m c 0 t) (iblk m c 1 t) (iblk m c 2 t) (ix2 p q)
    = Cert.Rbf.rbf (m ((c : Thread nD τ).loc main_arg0)) (m ((c : Thread nD τ).loc main_arg1))
        (((cfg0.win 3).blk t).view.emb (ix2 p q))
  -- the array index of the block's entry (p, q)
  have he : ((cfg0.win 3).blk t).view.emb (ix2 p q)
      = ix2 (⟨t.val * 1024 + p.val, by have := p.isLt; omega⟩ : Fin 16384) q := by
    funext a; apply Fin.ext
    match a with
    | ⟨0, _⟩ => show win0_3.index t (0 : Fin 2) * 1024 + 1 * p.val = t.val * 1024 + p.val; omega
    | ⟨1, _⟩ => show win0_3.index t (1 : Fin 2) * 1024 + 1 * q.val = q.val; omega
  rw [he]
  -- the staged block of x at (p, k) is x at row 1024 t + p
  have hx : ∀ k : Fin 512, iblk m c 0 t (ix2 p k)
      = m ((c : Thread nD τ).loc main_arg0) (ix2 (⟨t.val * 1024 + p.val, by have := p.isLt; omega⟩ : Fin 16384) k) := by
    intro k
    show V m c main_arg0 (((cfg0.win 0).blk t).view.emb (ix2 p k)) = _
    rw [V_main_arg0]
    refine congrArg (m ((c : Thread nD τ).loc main_arg0)) ?_
    funext a; apply Fin.ext
    match a with
    | ⟨0, _⟩ => show win0_0.index t (0 : Fin 2) * 1024 + 1 * p.val = t.val * 1024 + p.val; omega
    | ⟨1, _⟩ => show win0_0.index t (1 : Fin 2) * 512 + 1 * k.val = k.val; omega
  -- the staged copy of mu at (k, q) is mu there
  have hmu : ∀ k : Fin 512, iblk m c 1 t (ix2 k q) = m ((c : Thread nD τ).loc main_arg1) (ix2 k q) := by
    intro k
    show (V m c main_v0 : S512x1024.Idx → EReal) (((cfg0.win 1).blk t).view.emb (ix2 k q)) = _
    rw [found_mu]
    refine congrArg (m ((c : Thread nD τ).loc main_arg1) : S512x1024.Idx → EReal) ?_
    funext a; apply Fin.ext
    match a with
    | ⟨0, _⟩ => show win0_1.index t (0 : Fin 2) * 512 + 1 * k.val = k.val; omega
    | ⟨1, _⟩ => show win0_1.index t (1 : Fin 2) * 1024 + 1 * q.val = q.val; omega
  -- the staged row at lane q is the scaled norm of column q
  have hrow : iblk m c 2 t (ix2 (0 : Fin 1) q)
      = Ideal.ofBits .f32 0xBF000000#32
          * (Ideal.ofBits .f32 0x00000000#32 + Cert.Rbf.colSq (m ((c : Thread nD τ).loc main_arg1)) q) := by
    show (V m c main_v5 : S1x1024.Idx → EReal) (((cfg0.win 2).blk t).view.emb (ix2 (0 : Fin 1) q)) = _
    rw [found_row]
    refine Eq.trans (congrArg _ ?_) (scaled_row_apply (m ((c : Thread nD τ).loc main_arg1)) q)
    funext a; apply Fin.ext
    match a with
    | ⟨0, _⟩ => show win0_2.index t (0 : Fin 2) * 1 + 1 * 0 = 0; omega
    | ⟨1, _⟩ => show win0_2.index t (1 : Fin 2) * 1024 + 1 * q.val = q.val; omega
  refine (entry (iblk m c 0 t) (iblk m c 1 t) (iblk m c 2 t) p q).trans ?_
  unfold Cert.Rbf.rbf Cert.Rbf.expoFused Cert.Rbf.cross Cert.Rbf.rowSq
  refine congrArg Ideal.exp (congrArg₂ (· + ·) (congrArg₂ (· - ·)
    (congrArg (Ideal.ofBits .f32 0x3F800000#32 * ·) (Finset.sum_congr rfl fun k _ => by rw [hx k, hmu k]))
    (congrArg (Ideal.ofBits .f32 0x3F000000#32 * ·) (Finset.sum_congr rfl fun k _ => by rw [hx k]))) hrow)

/-- An index of the result is in point t's block iff each coordinate is in the block's range on its axis. -/
theorem mem_blk (t : Fin cfg0.N) (i : S16384x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v6).slice (win0_3.rect t)).set ↔ _
  rw [View.set_slice_whole, Rect.mem_set_unit]
  exact Iff.rfl

/-- Every entry of the result lies in the block of some point: row r in that of point r / 1024. -/
theorem covered (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  have hN : cfg0.N = 16 := N_0
  let t : Fin cfg0.N := ⟨(i 0).val / 1024, by rw [hN]; omega⟩
  have htv : t.val = (i 0).val / 1024 := rfl
  obtain ⟨e00, e01, e10, e11, e20, e21, e30, e31⟩ := block_indices t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- THE RESULT ARRAY after the run is the layer of the argument arrays. -/
theorem final (c : Dev nD) : (dats m 0 c).arrAt 3 cfg0.N
    = Cert.Rbf.rbf (m ((c : Thread nD τ).loc main_arg0)) (m ((c : Thread nD τ).loc main_arg1)) :=
  (dats m 0 c).arrAt_eq_of_cover 3 _ (fun t _ => flushed_eq m c t) covered

/-- The kernel's run: the result array ends at the layer of the arguments, the arguments unchanged. -/
theorem run : θ_run defs (onTc (τ := τ) (main (F := Ideal))) ⟨m, fun _ => 0, ρ⟩ fun r => ∀ c : Dev nD,
      r.2.mem ((c : Thread nD τ).loc main_v6)
        = Cert.Rbf.rbf (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Rbf.Kernel

end
-- ==== Proof.lean ====
/-
  The radial-basis layer: a fused kernel against the expanded squared distance.

  For x : [16384, 512] and centres mu : [512, 1024] both programs return exp (-(1/2) · ‖x_r − mu_u‖²) at (r, u), the
  squared distance expanded as ‖x_r‖² − 2 ⟨x_r, mu_u⟩ + ‖mu_u‖². The reference forms the three terms and multiplies
  their sum by -(1/2). The kernel distributes the factor: the host prepares the row -(1/2) · ‖mu_u‖² once, and each of
  the 16 grid points computes, for its 1024 rows, 1 · ⟨x_r, mu_u⟩ − (1/2) · ‖x_r‖² plus that row, and exponentiates.
  The narrowing of x and mu on the way into the matrix product is the identity on extended reals.

  On the extended reals a factor distributes over a sum only away from the infinities, so the two exponents are
  equal where the inputs are finite: then every entry is a real number, the three sums are real, and the identity
  (c − a / 2) + (−1/2) · b = (−1/2) · ((a − 2 c) + b) is one of the reals. The four constants 1, 1/2, −1/2, 2 are exact in
  single precision.

  The three frames are the generated ones (the reference's is its generated run with the result dropped); the ideal
  pass rewrote nothing, so the idealization claim is trivial; the value claim sets the kernel's result array — the
  layer, block by block — beside the reference's run read one operation at a time.
-/
import proofs.«120114_j38800734552376_2_alg».proof.Defs
import proofs.«120114_j38800734552376_2_alg».proof.Proof.Gen.Kernel
import proofs.«120114_j38800734552376_2_alg».proof.Proof.Gen.Kernel.Skeleton
import proofs.«120114_j38800734552376_2_alg».proof.Proof.Gen.Kernel.Launch
import proofs.«120114_j38800734552376_2_alg».proof.Proof.Gen.Kernel.Points
import proofs.«120114_j38800734552376_2_alg».proof.Proof.Gen.Kernel.Frame
import proofs.«120114_j38800734552376_2_alg».proof.Proof.Gen.KernelIdeal
import proofs.«120114_j38800734552376_2_alg».proof.Proof.Gen.KernelIdeal.Skeleton
import proofs.«120114_j38800734552376_2_alg».proof.Proof.Gen.KernelIdeal.Launch
import proofs.«120114_j38800734552376_2_alg».proof.Proof.Gen.KernelIdeal.Points
import proofs.«120114_j38800734552376_2_alg».proof.Proof.Gen.KernelIdeal.Frame
import proofs.«120114_j38800734552376_2_alg».proof.Proof.Gen.ReferenceIdeal
import proofs.«120114_j38800734552376_2_alg».proof.Proof.Gen.Pre_finite_inputs
import proofs.«120114_j38800734552376_2_alg».proof.Proof.Gen.KernelIdeal.Value
import proofs.«120114_j38800734552376_2_alg».proof.Proof.Gen.ReferenceIdeal.Run
import proofs.«120114_j38800734552376_2_alg».proof.Proof.Gen.ReferenceIdeal.Read
import proofs.«120114_j38800734552376_2_alg».proof.Proof.RbfSpec
import proofs.«120114_j38800734552376_2_alg».proof.Proof.RbfFinite
import proofs.«120114_j38800734552376_2_alg».proof.Proof.RbfReference
import proofs.«120114_j38800734552376_2_alg».proof.Proof.RbfKernelArray
import Idealize.ShloMosaic.Adequacy
import Idealize.ShloMosaic.Init

noncomputable section

namespace Cert.Proof

open Idealize.ShloMosaic Idealize.SL.Sem

/-- The word-level kernel terminates without a fault and leaves x and mu as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Both programs end with the layer of their arguments: the kernel's result array is it block by block, and the
    reference's exponent, -(1/2) times the expanded squared distance, is the kernel's distributed one at real entries. -/
theorem algebraic : Cert.algebraic_KernelIdeal_ReferenceIdeal := by
  intro m ρ m' ρ' hpre hagree
  refine ⟨fun c => Cert.Rbf.rbf (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Rbf.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, (hagree c).1, (hagree c).2]
  obtain ⟨hx, hmu⟩ := Cert.Rbf.Finite.real_entries _ _ (hpre c)
  funext i
  rw [Cert.Rbf.Reference.result_apply]
  exact congrArg Ideal.exp (Cert.Rbf.expoFused_eq_expoDist _ _ hx hmu (i 0) (i 1)).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
